-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x64x128x128 : Shape := ⟨5, ![16, 4, 64, 128, 128]⟩
abbrev S_ : Shape := ⟨0, ![]⟩

class Facts : Prop where
  bcast_S_S16x4x64x128x128 : S_.BroadcastsInDim S16x4x64x128x128 (![] : Fin 0 → Fin S16x4x64x128x128.rank)
  reducesTo_S16x4x64x128x128_S_d0_1_2_3_4 : S16x4x64x128x128.ReducesTo [0, 1, 2, 3, 4] S_
  h_S_ : 0 < S_.numel

variable [Facts]

def fn {F : FTy → Type} [FloatOps F] (main_arg0 : FVec F S16x4x64x128x128 .f32) : IVec S_ 1 :=
  let main_v0 : FVec F S16x4x64x128x128 .f32 := Host.absf main_arg0
  let main_cst : FVec F S_ .f32 := constant S_ .f32 0x7F800000#32
  let main_v1 : FVec F S16x4x64x128x128 .f32 := broadcastInDim S16x4x64x128x128 ![] bcast_S_S16x4x64x128x128 main_cst
  let main_v2 : IVec S16x4x64x128x128 1 := cmpf .olt main_v0 main_v1
  let main_c : IVec S_ 1 := constantI S_ 1 1#1
  let main_v3 : IVec S_ 1 := (fun x v => Host.reduce IntOp.andi x v reducesTo_S16x4x64x128x128_S_d0_1_2_3_4 h_S_) main_v2 main_c
  main_v3
-- ==== Kernel.lean ====
abbrev S16x4x64x128x128 : Shape := ⟨5, ![16, 4, 64, 128, 128]⟩
abbrev S16x4x64x16384 : Shape := ⟨4, ![16, 4, 64, 16384]⟩
abbrev S16x1x8x16384 : Shape := ⟨4, ![16, 1, 8, 16384]⟩
abbrev S1x8x16384 : Shape := ⟨3, ![1, 8, 16384]⟩
abbrev S1x1x8x16384 : Shape := ⟨4, ![1, 1, 8, 16384]⟩

abbrev nBuf : Space → Nat
  | .hbm => 4
  | .vmem => 5
  | .smem => 0
  | _ => 0

abbrev bufTy : (tb : Table) → Fin (tcTables nBuf tb) → BufTy
  | .hbm, ⟨0, _⟩ => ⟨S16x4x64x128x128, .f32⟩
  | .hbm, ⟨1, _⟩ => ⟨S16x4x64x16384, .f32⟩
  | .hbm, ⟨2, _⟩ => ⟨S16x4x64x16384, .f32⟩
  | .hbm, ⟨3, _⟩ => ⟨S16x4x64x128x128, .f32⟩
  | .local _ .vmem, ⟨0, _⟩ => ⟨S16x1x8x16384, .f32⟩
  | .local _ .vmem, ⟨1, _⟩ => ⟨S16x1x8x16384, .f32⟩
  | .local _ .vmem, ⟨2, _⟩ => ⟨S16x1x8x16384, .f32⟩
  | .local _ .vmem, ⟨3, _⟩ => ⟨S16x1x8x16384, .f32⟩
  | .local _ .vmem, ⟨4, _⟩ => ⟨S1x8x16384, .f32⟩
  | _, _ => ⟨S16x4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_off1 (k0_t1 : Fin k0_t1_loop.trips) : Fin 4 → Nat :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v6 : BitVec 32 := Scalar.muli arg5 c1_i32_7
  let v7 : BitVec 32 := Scalar.addi c0_i32_8 v6
  let v9 : Index := Scalar.indexCast v7
  let c0_12 : Index := 0#32
  let c0_13 : Index := 0#32
  let c0_14 : Index := 0#32
  ![v9.toNat, 0, 0, 0]
@[reducible] def k0_t2_loop : Scf.Loop 32 :=
  let c0_i32_3 : BitVec 32 := 0#32
  let c16_i32_4 : BitVec 32 := 16#32
  let v5 : BitVec 32 := Scalar.addi c0_i32_3 c16_i32_4
  let c1_i32_5 : BitVec 32 := 1#32
  ⟨c0_i32_3, v5, c1_i32_5⟩
def k0_off2 (k0_t2 : Fin k0_t2_loop.trips) : Fin 4 → Nat :=
  let c0_i32_8 : BitVec 32 := 0#32
  let c0_i32_3 : BitVec 32 := 0#32
  let c1_i32_5 : BitVec 32 := 1#32
  let arg5 : BitVec 32 := Scf.iv c0_i32_3 c1_i32_5 k0_t2
  let c1_i32_7 : BitVec 32 := 1#32
  let v6 : BitVec 32 := Scalar.muli arg5 c1_i32_7
  let v7 : BitVec 32 := Scalar.addi c0_i32_8 v6
  let v8 : Index := Scalar.indexCast v7
  let c0_9 : Index := 0#32
  let c0_10 : Index := 0#32
  let c0_11 : Index := 0#32
  ![v8.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S16x1x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x4x64x128x128_S16x4x64x16384 : S16x4x64x128x128.ShapeCasts S16x4x64x16384
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S1x8x16384 : S1x8x16384.ShapeCasts S1x8x16384
  h_S1x1x8x16384 : 0 < S1x1x8x16384.numel
  shapeCasts_S1x1x8x16384_S1x8x16384 : S1x1x8x16384.ShapeCasts S1x8x16384
  shapeCasts_S1x8x16384_S1x1x8x16384 : S1x8x16384.ShapeCasts S1x1x8x16384
  shapeCasts_S16x4x64x16384_S16x4x64x128x128 : S16x4x64x16384.ShapeCasts S16x4x64x128x128
  hrank0 : 0 < grid0.rank
  k0_t1_ok : k0_t1_loop.OK
  k0_off1_inb : ∀ k0_t1 : Fin k0_t1_loop.trips, ∀ a, (k0_off1 k0_t1) a + S1x1x8x16384.size a ≤ S16x1x8x16384.size a
  k0_t2_ok : k0_t2_loop.OK
  k0_off2_inb : ∀ k0_t2 : Fin k0_t2_loop.trips, ∀ a, (k0_off2 k0_t2) a + S1x1x8x16384.size a ≤ S16x1x8x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x8x16384.size a ≤ S16x4x64x16384.size a
  hwx0_0 : ∀ i : grid0.Coords, EltTy.bits .f32 = 32 ∨ (Rect.block (s := S16x4x64x16384) S16x1x8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x8x16384.size a ≤ S16x4x64x16384.size a
  hwx0_1 : ∀ i : grid0.Coords, EltTy.bits .f32 = 32 ∨ (Rect.block (s := S16x4x64x16384) S16x1x8x16384.size (cc0_transform_1 i) (hinb0_1 i)).WholeWords (EltTy.packing .f32)

variable [Facts₀]

abbrev win0_0 : Pipeline.Window sig grid0 :=
  Pipeline.Window.ofSpec (Memref.whole main_v0) S16x1x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1x8x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x64x128x128 : Shape := ⟨5, ![16, 4, 64, 128, 128]⟩
abbrev S_ : Shape := ⟨0, ![]⟩
abbrev S4x64x128x128 : Shape := ⟨4, ![4, 64, 128, 128]⟩
abbrev S1x4x64x128x128 : Shape := ⟨5, ![1, 4, 64, 128, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x4x64x128x128, .f32⟩
  | .hbm, ⟨1, _⟩ => ⟨S_, .f32⟩
  | .hbm, ⟨2, _⟩ => ⟨S4x64x128x128, .f32⟩
  | .hbm, ⟨3, _⟩ => ⟨S1x4x64x128x128, .f32⟩
  | .hbm, ⟨4, _⟩ => ⟨S16x4x64x128x128, .f32⟩
  | .hbm, ⟨5, _⟩ => ⟨S16x4x64x128x128, .f32⟩
  | .hbm, ⟨6, _⟩ => ⟨S16x4x64x128x128, .f32⟩
  | _, _ => ⟨S16x4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S16x4x64x128x128_S4x64x128x128_d0 : S16x4x64x128x128.ReducesTo [0] S4x64x128x128
  h_S_ : 0 < S_.numel
  bcast_S4x64x128x128_S1x4x64x128x128_1_2_3_4 : S4x64x128x128.BroadcastsInDim S1x4x64x128x128 (![1, 2, 3, 4] : Fin 4 → Fin S1x4x64x128x128.rank)
  bcast_S1x4x64x128x128_S16x4x64x128x128_0_1_2_3_4 : S1x4x64x128x128.BroadcastsInDim S16x4x64x128x128 (![0, 1, 2, 3, 4] : Fin 5 → Fin S16x4x64x128x128.rank)

variable [Facts₀]

class Facts : Prop extends Facts₀ where

variable [Facts]
-- ==== Proof.Spec.lean ====
/-
  The function both programs compute, and the one law that joins them.

  For an array x of sixteen frames, entry (n, b, c, h, w) of the result is

      x(n,b,c,h,w) * x(n,b,c,h,w) * (z + sum over k < 16 of x(k,b,c,h,w))

  on the extended reals, where z is the value of the zero word both programs start their sum from (it is
  never evaluated: the same word stands on both sides). The kernel works on the array with its two
  spatial axes flattened to one of length 16384 and on tiles of eight channels of one batch entry, so the
  same function is stated for those two shapes as well; and it reaches the inner sum as a running sum,
  one frame per step. Addition of extended reals is associative, so the running sum after n steps is
  z + (the sum of the first n frames), and after sixteen steps it is the inner sum above. No finiteness
  is used anywhere: associativity of + holds at the infinities too.
-/
import Idealize.ShloMosaic.PureOps.Ideal
import Idealize.ShloMosaic.Lib.ValueIdx

noncomputable section

open scoped BigOperators

namespace Cert.FrameSum

open Idealize.ShloMosaic Idealize.ShloMosaic.ValueIdx

/-- Sixteen frames of 4 x 64 channels of 128 x 128 pixels. -/
abbrev Frames5 : Shape := ⟨5, ![16, 4, 64, 128, 128]⟩
/-- The same array with the two pixel axes flattened. -/
abbrev Frames4 : Shape := ⟨4, ![16, 4, 64, 16384]⟩
/-- One tile of it: all sixteen frames of eight channels of one batch entry. -/
abbrev Tile : Shape := ⟨4, ![16, 1, 8, 16384]⟩
/-- One frame of a tile, which is also the shape of the running sum. -/
abbrev Row : Shape := ⟨3, ![1, 8, 16384]⟩

/-- The value of the zero word the sum starts from. -/
def zero : EReal := Ideal.ofBits .f32 0x00000000#32

/-- The result over the five-axis array. -/
def result5 (x : Frames5.Idx → EReal) : Frames5.Idx → EReal := fun i =>
  x i * x i * (zero + ∑ k : Fin 16, x (ix5 k (i 1 : Fin 4) (i 2 : Fin 64) (i 3 : Fin 128) (i 4 : Fin 128)))

/-- The result over the four-axis array. -/
def result4 (x : Frames4.Idx → EReal) : Frames4.Idx → EReal := fun j =>
  x j * x j * (zero + ∑ k : Fin 16, x (ix4 k (j 1 : Fin 4) (j 2 : Fin 64) (j 3 : Fin 16384)))

/-- The result over one tile. -/
def resultTile (x : Tile.Idx → EReal) : Tile.Idx → EReal := fun y =>
  x y * x y * (zero + ∑ k : Fin 16, x (ix4 k (y 1 : Fin 1) (y 2 : Fin 8) (y 3 : Fin 16384)))

/-- A frame number from a natural number (numbers past the last frame name the last frame; the running
    sum below only ever asks for numbers below sixteen). -/
def frameOf (k : ℕ) : Fin 16 := ⟨min k 15, by omega⟩

theorem frameOf_val (k : Fin 16) : frameOf k.val = k := Fin.ext (by
  show min k.val 15 = k.val
  have := k.isLt
  omega)

/-- The running sum over a tile after `n` steps, at channel `r` and pixel `l`. -/
def running (x : Tile.Idx → EReal) (n : ℕ) (u : Fin 1) (r : Fin 8) (l : Fin 16384) : EReal :=
  zero + ∑ k ∈ Finset.range n, x (ix4 (frameOf k) u r l)

theorem running_zero (x : Tile.Idx → EReal) (u : Fin 1) (r : Fin 8) (l : Fin 16384) :
    running x 0 u r l = zero := by
  unfold running
  rw [Finset.range_zero, Finset.sum_empty, add_zero]

/-- One step adds the next frame on the right; associativity moves it inside the sum. -/
theorem running_succ (x : Tile.Idx → EReal) (n : ℕ) (u : Fin 1) (r : Fin 8) (l : Fin 16384) :
    running x (n + 1) u r l = running x n u r l + x (ix4 (frameOf n) u r l) := by
  unfold running
  rw [Finset.sum_range_succ, add_assoc]

/-- After all sixteen steps the running sum is the inner sum of the result. -/
theorem running_all (x : Tile.Idx → EReal) (u : Fin 1) (r : Fin 8) (l : Fin 16384) :
    running x 16 u r l = zero + ∑ k : Fin 16, x (ix4 k u r l) := by
  unfold running
  rw [Finset.sum_range]
  simp only [frameOf_val]

end Cert.FrameSum

end
-- ==== Proof.RefIsSpec.lean ====
/-
  The reference computes the specified function.

  Its six host operations are: the zero constant; the sum of the sixteen frames started from that constant;
  that sum given back a leading axis of length one; the square of the input; the sum repeated along the
  frame axis; and the product of the last two. Read at an index (n, b, c, h, w), the two repetitions read the
  sum at (b, c, h, w) whatever n is, and the sum there is the constant plus the sum over k of x(k,b,c,h,w):
  exactly the specified entry.
-/
import proofs.«137969_j77988016161334_2_alg».proof.Proof.Gen.ReferenceIdeal.Read
import proofs.«137969_j77988016161334_2_alg».proof.Proof.Spec

noncomputable section

open scoped BigOperators

namespace Cert.FrameSum.Reference

open Idealize.ShloMosaic Idealize.ShloMosaic.ValueIdx
open Cert.ReferenceIdeal Cert.ReferenceIdeal.Read Cert.FrameSum

/-- Through the two repetitions and the sum, entry (n, b, c, h, w) reads frame k at (k, b, c, h, w). -/
theorem read_frame (i : S16x4x64x128x128.Idx) (k : Fin 16) :
    idx_main_v0 (idx_main_v1 (idx_main_v3 i)) k
      = ix5 k (i 1 : Fin 4) (i 2 : Fin 64) (i 3 : Fin 128) (i 4 : Fin 128) :=
  funext fun a => Fin.ext (by
    match a with
    | ⟨0, _⟩ => rfl
    | ⟨1, _⟩ => rfl
    | ⟨2, _⟩ => rfl
    | ⟨3, _⟩ => rfl
    | ⟨4, _⟩ => rfl)

/-- The reference's last stage is the specified result of its argument. -/
theorem stage_eq (x : S16x4x64x128x128.Idx → EReal) : val_main_v4 (F := Ideal) x = result5 x := by
  funext i
  rw [val_main_v4_apply, val_main_v2_apply, val_main_v3_apply, val_main_v1_apply, val_main_v0_apply,
    val_main_cst_apply]
  simp only [read_frame]
  rfl

end Cert.FrameSum.Reference

end
-- ==== Proof.RunningSum.lean ====
/-
  The running sum the kernel keeps in its scratch buffer.

  The body first stores zeros into the buffer; then, sixteen times, it loads the buffer, loads frame k of
  the input tile, and stores their sum back. One step therefore turns the row it finds into
  (that row) + (frame k), and after n steps the row at channel r and pixel l is

      z + x(0,r,l) + x(1,r,l) + ... + x(n-1,r,l),

  grouped to the left as the steps were taken. Regrouped by associativity this is the running sum of the
  specification, which after all sixteen steps is the inner sum of the result.
-/
import proofs.«137969_j77988016161334_2_alg».proof.Proof.Gen.KernelIdeal.Frame
import proofs.«137969_j77988016161334_2_alg».proof.Proof.Spec
import Idealize.ShloMosaic.Lib.WholeRead
import Idealize.ShloMosaic.Lib.ValueLayout
import Idealize.ShloMosaic.Lib.Pipeline.Value

set_option maxRecDepth 16384

noncomputable section

open scoped BigOperators

namespace Cert.FrameSum.Kernel

open Idealize.ShloMosaic Idealize.ShloMosaic.TcCoe Idealize.SL.Sem Idealize.ShloMosaic.ValueIdx
open Cert.KernelIdeal Cert.KernelIdeal.Gen Cert.FrameSum

variable {F : FTy → Type} [FloatOps F]

/-- The rectangle that is the whole running-sum buffer. -/
abbrev wholeRow : Rect S1x8x16384 :=
  Rect.unit (s := S1x8x16384) ![0, 0, 0] S1x8x16384.size inb_S1x8x16384_S1x8x16384_0_0_0

/-- Frame `k` of a tile, as the summing loop addresses it, -/
abbrev frame1 (k : Fin k0_t1_loop.trips) : Rect S16x1x8x16384 :=
  Rect.unit (s := S16x1x8x16384) (k0_off1 k) S1x1x8x16384.size (k0_off1_inb k)
/-- and as the multiplying loop does. -/
abbrev frame2 (k : Fin k0_t2_loop.trips) : Rect S16x1x8x16384 :=
  Rect.unit (s := S16x1x8x16384) (k0_off2 k) S1x1x8x16384.size (k0_off2_inb k)

section Steps

variable (𝒱 : Variants) (c : Dev nD) (bd : Option 𝒱.V) (i : grid0.Coords)
  (arg2 : Memref sig .tc .vmem S16x1x8x16384 .f32) (harg2 : arg2.IsWhole)
  (arg3 : Memref sig .tc .vmem S16x1x8x16384 .f32) (harg3 : arg3.IsWhole)
  (arg4 : Memref sig .tc .vmem S1x8x16384 .f32) (harg4 : arg4.IsWhole)
  (X : BufTy.Contents (Elt F) arg2.view.ty)

/-- One summing step stores, over the whole buffer, the row it finds plus frame `k`. -/
theorem addStep_pieces (k : Fin k0_t1_loop.trips) (f : BufTy.Contents (Elt F) arg4.view.ty) :
    tripL_k0_t1 (F := F) 𝒱 c bd i arg2 harg2 arg3 harg3 arg4 harg4 X k f
      = [⟨wholeRow, k0_pay2 (View.readAt (Elt F) arg4.view wholeRow.toLoadRect f)
            (View.readAt (Elt F) arg2.view (frame1 k).toLoadRect X)⟩] := by
  unfold tripL_k0_t1 trip_k0_t1
  rfl

/-- One multiplying step stores, over frame `k` of the output tile, the product of frame `k` of the input,
    itself again, and the row in the buffer. -/
theorem mulStep_pieces (S : BufTy.Contents (Elt F) arg4.view.ty) (k : Fin k0_t2_loop.trips) :
    tripL_k0_t2 (F := F) 𝒱 c bd i arg2 harg2 arg3 harg3 arg4 harg4 X S k
      = [⟨frame2 k, k0_pay3 (View.readAt (Elt F) arg2.view (frame2 k).toLoadRect X)
            (View.readAt (Elt F) arg4.view wholeRow.toLoadRect S)⟩] := by
  unfold tripL_k0_t2 trip_k0_t2
  rfl

/-- The buffer after `n` summing steps, from contents `G` at the loop's entry, -/
def sumBuf (G : BufTy.Contents (Elt F) arg4.view.ty) (n : ℕ) : BufTy.Contents (Elt F) arg4.view.ty :=
  arg4.view.writes (Elt F) G (pb_k0_t1 (F := F) 𝒱 c bd i arg2 harg2 arg3 harg3 arg4 harg4 X G n)

/-- and the row a load of the whole buffer then reads. -/
def sumRow (G : BufTy.Contents (Elt F) arg4.view.ty) (n : ℕ) : Vec F S1x8x16384 .f32 :=
  View.readAt (Elt F) arg4.view wholeRow.toLoadRect (sumBuf 𝒱 c bd i arg2 harg2 arg3 harg3 arg4 harg4 X G n)

/-- Before any step the row is what the zero-fill stored. -/
theorem sumRow_zero (f : BufTy.Contents (Elt F) arg4.view.ty) :
    sumRow 𝒱 c bd i arg2 harg2 arg3 harg3 arg4 harg4 X
      (arg4.view.writes (Elt F) f [⟨wholeRow, k0_pay1 (F := F)⟩]) 0 = k0_pay1 (F := F) := by
  unfold sumRow sumBuf
  rw [pb_k0_t1.eq_1, View.writes_nil]
  funext x
  exact View.read_writes_cons_emb arg4.view f wholeRow (k0_pay1 (F := F)) [] x

/-- A step replaces the row by the sum of the row and frame `k`. -/
theorem sumRow_succ (G : BufTy.Contents (Elt F) arg4.view.ty) (k : Fin k0_t1_loop.trips) :
    sumRow 𝒱 c bd i arg2 harg2 arg3 harg3 arg4 harg4 X G (k.val + 1)
      = k0_pay2 (sumRow 𝒱 c bd i arg2 harg2 arg3 harg3 arg4 harg4 X G k.val)
          (View.readAt (Elt F) arg2.view (frame1 k).toLoadRect X) := by
  unfold sumRow sumBuf
  rw [pb_k0_t1_succ, addStep_pieces]
  funext x
  exact View.read_writes_cons_emb arg4.view G wholeRow _ _ x

end Steps

end Cert.FrameSum.Kernel

end
-- ==== Proof.TileValue.lean ====
/-
  What the body leaves in its output tile: the specified function of its input tile.

  At the extended reals the three stored values read, entry by entry:
    the zero-fill                 z;
    a summing step                (row found) + (frame k of the input);
    a multiplying step, frame k   (frame k of the input) * (the same) * (row in the buffer).
  Sixteen summing steps after the zero-fill leave the running sum of the specification in the buffer
  (induction on the number of steps, one use of associativity per step), which after sixteen steps is
  z + (the sum of all sixteen frames). Each multiplying step then stores, over frame k of the output
  tile, exactly the specified entries of that frame. The sixteen frames tile the output tile, so the whole
  tile ends at the specified function of the input tile.
-/
import proofs.«137969_j77988016161334_2_alg».proof.Proof.RunningSum

set_option maxRecDepth 16384

noncomputable section

open scoped BigOperators

namespace Cert.FrameSum.Kernel

open Idealize.ShloMosaic Idealize.ShloMosaic.TcCoe Idealize.SL.Sem Idealize.ShloMosaic.ValueIdx
open Cert.KernelIdeal Cert.KernelIdeal.Gen Cert.FrameSum

/-! ### The three stored values, entry by entry -/

theorem zeroPayload_apply (j : S1x8x16384.Idx) : k0_pay1 (F := Ideal) j = zero := by
  unfold k0_pay1
  simp only [shapeCast_self]
  rfl

theorem addPayload_apply (a : Vec Ideal S1x8x16384 .f32) (b : Vec Ideal S1x1x8x16384 .f32)
    (u : Fin 1) (r : Fin 8) (l : Fin 16384) :
    k0_pay2 (F := Ideal) a b (ix3 u r l) = a (ix3 u r l) + b (ix4 (0 : Fin 1) u r l) := by
  unfold k0_pay2
  simp only [shapeCast_self]
  rw [addf_apply, shapeCast_1abc_abc_apply]

theorem mulPayload_apply (v : Vec Ideal S1x1x8x16384 .f32) (s : Vec Ideal S1x8x16384 .f32)
    (u0 u : Fin 1) (r : Fin 8) (l : Fin 16384) :
    k0_pay3 (F := Ideal) v s (ix4 u0 u r l)
      = v (ix4 (0 : Fin 1) u r l) * v (ix4 (0 : Fin 1) u r l) * s (ix3 u r l) := by
  unfold k0_pay3
  rw [shapeCast_abc_1abc_apply, mulf_apply, mulf_apply, shapeCast_1abc_abc_apply]

/-! ### Which entries of the tile a step's frame holds -/

theorem trips1 : k0_t1_loop.trips = 16 := by decide
theorem trips2 : k0_t2_loop.trips = 16 := by decide

/-- Entry (0, u, r, l) of frame `k` is entry (k, u, r, l) of the tile (summing loop), -/
theorem frame1_idx (k : Fin k0_t1_loop.trips) (u0 u : Fin 1) (r : Fin 8) (l : Fin 16384) :
    (frame1 k).toLoadRect.idx (ix4 u0 u r l) = ix4 (frameOf k.val) u r l := by
  have hk : k.val < 16 := lt_of_lt_of_eq k.isLt trips1
  have e := k0_off1_eq k
  have h0 : u0.val = 0 := by omega
  funext a
  apply Fin.ext
  rw [LoadRect.idx_apply]
  match a with
  | ⟨0, _⟩ => show k0_off1 k 0 + 1 * u0.val = min k.val 15; rw [e]; show k.val + 1 * u0.val = min k.val 15; omega
  | ⟨1, _⟩ => show k0_off1 k 1 + 1 * u.val = u.val; rw [e]; show 0 + 1 * u.val = u.val; omega
  | ⟨2, _⟩ => show k0_off1 k 2 + 1 * r.val = r.val; rw [e]; show 0 + 1 * r.val = r.val; omega
  | ⟨3, _⟩ => show k0_off1 k 3 + 1 * l.val = l.val; rw [e]; show 0 + 1 * l.val = l.val; omega

/-- and the same for the multiplying loop. -/
theorem frame2_idx (k : Fin k0_t2_loop.trips) (u0 u : Fin 1) (r : Fin 8) (l : Fin 16384) :
    (frame2 k).toLoadRect.idx (ix4 u0 u r l) = ix4 (frameOf k.val) u r l := by
  have hk : k.val < 16 := lt_of_lt_of_eq k.isLt trips2
  have e := k0_off2_eq k
  have h0 : u0.val = 0 := by omega
  funext a
  apply Fin.ext
  rw [LoadRect.idx_apply]
  match a with
  | ⟨0, _⟩ => show k0_off2 k 0 + 1 * u0.val = min k.val 15; rw [e]; show k.val + 1 * u0.val = min k.val 15; omega
  | ⟨1, _⟩ => show k0_off2 k 1 + 1 * u.val = u.val; rw [e]; show 0 + 1 * u.val = u.val; omega
  | ⟨2, _⟩ => show k0_off2 k 2 + 1 * r.val = r.val; rw [e]; show 0 + 1 * r.val = r.val; omega
  | ⟨3, _⟩ => show k0_off2 k 3 + 1 * l.val = l.val; rw [e]; show 0 + 1 * l.val = l.val; omega

section Tile

variable (𝒱 : Variants) (c : Dev nD) (bd : Option 𝒱.V) (i : grid0.Coords)
  (arg2 : Memref sig .tc .vmem S16x1x8x16384 .f32) (harg2 : arg2.IsWhole)
  (arg3 : Memref sig .tc .vmem S16x1x8x16384 .f32) (harg3 : arg3.IsWhole)
  (arg4 : Memref sig .tc .vmem S1x8x16384 .f32) (harg4 : arg4.IsWhole)
  (x0 : Vec Ideal S16x1x8x16384 .f32)

/-- The buffer as the zero-fill leaves it. -/
abbrev zeroFilled : BufTy.Contents (Elt Ideal) arg4.view.ty :=
  arg4.view.writes (Elt Ideal) arg4.view.junk [⟨wholeRow, k0_pay1 (F := Ideal)⟩]

/-- After `n` summing steps the buffer's row is the specification's running sum. -/
theorem sumRow_apply (n : ℕ) (hn : n ≤ 16) (u : Fin 1) (r : Fin 8) (l : Fin 16384) :
    sumRow (F := Ideal) 𝒱 c bd i arg2 harg2 arg3 harg3 arg4 harg4 (harg2.unread x0) (zeroFilled arg4) n (ix3 u r l)
      = running x0 n u r l := by
  induction n with
  | zero => rw [sumRow_zero, zeroPayload_apply, running_zero]
  | succ n ih =>
    have hlt : n < k0_t1_loop.trips := by rw [trips1]; omega
    have hs := sumRow_succ (F := Ideal) 𝒱 c bd i arg2 harg2 arg3 harg3 arg4 harg4 (harg2.unread x0) (zeroFilled arg4) ⟨n, hlt⟩
    rw [show n + 1 = (⟨n, hlt⟩ : Fin k0_t1_loop.trips).val + 1 from rfl, hs, addPayload_apply, running_succ,
      Memref.IsWhole.readAt_unread, frame1_idx]
    exact congrArg (· + x0 (ix4 (frameOf n) u r l)) (ih (by omega))

end Tile

section Whole

variable (c : Dev nD) (i : grid0.Coords)
  (arg2 : Memref sig .tc .vmem S16x1x8x16384 .f32) (harg2 : arg2.IsWhole)
  (arg3 : Memref sig .tc .vmem S16x1x8x16384 .f32) (harg3 : arg3.IsWhole)
  (arg4 : Memref sig .tc .vmem S1x8x16384 .f32) (harg4 : arg4.IsWhole)
  (x0 : Vec Ideal S16x1x8x16384 .f32)

/-- The row in the buffer once the summing loop is over: z plus the sum of all sixteen frames. -/
theorem summed_row (u : Fin 1) (r : Fin 8) (l : Fin 16384) :
    sumRow (F := Ideal) Variants.none c none i arg2 harg2 arg3 harg3 arg4 harg4 (harg2.unread x0) (zeroFilled arg4)
        k0_t1_loop.trips (ix3 u r l)
      = zero + ∑ k : Fin 16, x0 (ix4 k u r l) := by
  have h : ∀ n, n = 16 →
      sumRow (F := Ideal) Variants.none c none i arg2 harg2 arg3 harg3 arg4 harg4 (harg2.unread x0) (zeroFilled arg4)
          n (ix3 u r l)
        = zero + ∑ k : Fin 16, x0 (ix4 k u r l) := by
    intro n hn
    subst hn
    rw [sumRow_apply Variants.none c none i arg2 harg2 arg3 harg3 arg4 harg4 x0 16 le_rfl, running_all]
  exact h _ trips1

/-- A multiplying step's stored value is the specified result on the frame it is stored over. -/
theorem mulStep_agrees (k : Fin k0_t2_loop.trips) (x : (⟨4, ![1, 1, 8, 16384]⟩ : Shape).Idx) :
    k0_pay3 (F := Ideal) (View.readAt (Elt Ideal) arg2.view (frame2 k).toLoadRect (harg2.unread x0))
        (sumRow (F := Ideal) Variants.none c none i arg2 harg2 arg3 harg3 arg4 harg4 (harg2.unread x0) (zeroFilled arg4)
          k0_t1_loop.trips) x
      = resultTile x0 ((frame2 k).toLoadRect.idx x) := by
  obtain ⟨u0, u, r, l, rfl⟩ : ∃ (u0 u : Fin 1) (r : Fin 8) (l : Fin 16384), x = ix4 u0 u r l :=
    ⟨x 0, x 1, x 2, x 3, eq_ix4 x⟩
  rw [mulPayload_apply, Memref.IsWhole.readAt_unread, frame2_idx, frame2_idx, summed_row]
  rfl

/-- So does every piece the multiplying loop has stored after `n` steps. -/
theorem pieces_agree (n : ℕ) (hn : n ≤ 16) :
    ∀ p ∈ pb_k0_t2 (F := Ideal) Variants.none c none i arg2 harg2 arg3 harg3 arg4 harg4 (harg2.unread x0)
        (sumBuf (F := Ideal) Variants.none c none i arg2 harg2 arg3 harg3 arg4 harg4 (harg2.unread x0) (zeroFilled arg4)
          k0_t1_loop.trips) n,
      ∀ x : p.1.shape.Idx, p.2 x = resultTile x0 (p.1.emb x) := by
  induction n with
  | zero =>
    intro p hp
    rw [pb_k0_t2.eq_1] at hp
    exact absurd hp List.not_mem_nil
  | succ n ih =>
    intro p hp
    have hlt : n < k0_t2_loop.trips := by rw [trips2]; omega
    rw [show n + 1 = (⟨n, hlt⟩ : Fin k0_t2_loop.trips).val + 1 from rfl, pb_k0_t2_succ, mulStep_pieces] at hp
    rcases List.mem_append.mp hp with h | h
    · obtain rfl := List.mem_singleton.mp h
      intro x
      exact mulStep_agrees c i arg2 harg2 arg3 harg3 arg4 harg4 x0 ⟨n, hlt⟩ x
    · exact ih (by omega) p h

/-- The pieces the whole body leaves in the output tile are the multiplying loop's, stored over the buffer
    the summing loop left. -/
theorem run_pieces :
    (kernelRun0_A (F := Ideal) c i arg2 harg2 arg3 harg3 arg4 harg4 x0).1
      = pb_k0_t2 (F := Ideal) Variants.none c none i arg2 harg2 arg3 harg3 arg4 harg4 (harg2.unread x0)
          (sumBuf (F := Ideal) Variants.none c none i arg2 harg2 arg3 harg3 arg4 harg4 (harg2.unread x0) (zeroFilled arg4)
            k0_t1_loop.trips) k0_t2_loop.trips := by
  unfold kernelRun0_A sumBuf
  dsimp only
  rw [View.writes_append]
  rfl

/-- THE TILE: what the body leaves in the output's staging buffer is the specified function of the input tile. -/
theorem tile_eq : out0_A_1 (F := Ideal) c i arg2 harg2 arg3 harg3 arg4 harg4 x0 = resultTile x0 := by
  funext y
  unfold out0_A_1
  obtain ⟨pc, hpc, hy⟩ := cover0_A_1 (F := Ideal) c i arg2 harg2 arg3 harg3 arg4 harg4 x0 y
  refine View.read_writes_apply_of_pieces VO0_1 VO0_1.junk (resultTile x0) _ (fun p hp x => ?_) y ⟨pc, hpc, hy⟩
  rw [run_pieces] at hp
  exact pieces_agree c i arg2 harg2 arg3 harg3 arg4 harg4 x0 k0_t2_loop.trips (le_of_eq trips2) p hp x

end Whole

end Cert.FrameSum.Kernel

end
-- ==== Proof.Flatten.lean ====
/-
  Flattening the two pixel axes commutes with the result.

  Pixel (h, w) of a 128 x 128 image is pixel 128 h + w of the flattened image, and nothing else about an
  entry's position changes, so in row-major order entry (n, b, c, h, w) of the five-axis array and entry
  (n, b, c, 128 h + w) of the four-axis one are the same entry. The result at an entry reads the same
  channel and pixel in every frame, which is a condition flattening preserves; so the four-axis result of
  the flattened input, un-flattened, is the five-axis result of the input.
-/
import proofs.«137969_j77988016161334_2_alg».proof.Proof.Spec
import Idealize.ShloMosaic.Lib.Pipeline.Value

noncomputable section

open scoped BigOperators

namespace Cert.FrameSum

open Idealize.ShloMosaic Idealize.ShloMosaic.ValueIdx

/-- Pixel (h, w) in the flattened image. -/
def flat (h w : Fin 128) : Fin 16384 := ⟨h.val * 128 + w.val, by omega⟩

/-- The flattened array at (n, b, c, 128 h + w) is the array at (n, b, c, h, w). -/
theorem flatten_apply (x : Frames5.Idx → EReal) (h1 : Frames5.ShapeCasts Frames4)
    (n : Fin 16) (b : Fin 4) (c : Fin 64) (h w : Fin 128) :
    shapeCast Frames4 x h1 (ix4 n b c (flat h w)) = x (ix5 n b c h w) :=
  shapeCast_apply x h1 _ _ (by
    rw [Shape.rowMajor_val_five, Shape.rowMajor_val_four]
    show (((n.val * 4 + b.val) * 64 + c.val) * 128 + h.val) * 128 + w.val
      = ((n.val * 4 + b.val) * 64 + c.val) * 16384 + (h.val * 128 + w.val)
    omega)

/-- The un-flattened array at (n, b, c, h, w) is the array at (n, b, c, 128 h + w). -/
theorem unflatten_apply (y : Frames4.Idx → EReal) (h2 : Frames4.ShapeCasts Frames5)
    (n : Fin 16) (b : Fin 4) (c : Fin 64) (h w : Fin 128) :
    shapeCast Frames5 y h2 (ix5 n b c h w) = y (ix4 n b c (flat h w)) :=
  shapeCast_apply y h2 _ _ (by
    rw [Shape.rowMajor_val_five, Shape.rowMajor_val_four]
    show ((n.val * 4 + b.val) * 64 + c.val) * 16384 + (h.val * 128 + w.val)
      = (((n.val * 4 + b.val) * 64 + c.val) * 128 + h.val) * 128 + w.val
    omega)

/-- The four-axis result of the flattened input, un-flattened, is the five-axis result of the input. -/
theorem unflatten_result (x : Frames5.Idx → EReal) (h1 : Frames5.ShapeCasts Frames4) (h2 : Frames4.ShapeCasts Frames5) :
    shapeCast Frames5 (result4 (shapeCast Frames4 x h1)) h2 = result5 x := by
  funext i
  obtain ⟨n, b, c, h, w, rfl⟩ : ∃ (n : Fin 16) (b : Fin 4) (c : Fin 64) (h w : Fin 128), i = ix5 n b c h w :=
    ⟨i 0, i 1, i 2, i 3, i 4, eq_ix5 i⟩
  rw [unflatten_apply]
  show shapeCast Frames4 x h1 (ix4 n b c (flat h w)) * shapeCast Frames4 x h1 (ix4 n b c (flat h w))
        * (zero + ∑ k : Fin 16, shapeCast Frames4 x h1 (ix4 k b c (flat h w)))
      = x (ix5 n b c h w) * x (ix5 n b c h w) * (zero + ∑ k : Fin 16, x (ix5 k b c h w))
  simp only [flatten_apply]

end Cert.FrameSum

end
-- ==== Proof.KernelValue.lean ====
/-
  From tiles to the array, and through the two reshapes.

  The grid has 4 x 8 points; point (b, q) works on the tile of batch entry b and channels 8q .. 8q+7, all
  sixteen frames and all pixels, and writes its output tile back to the same place of the output array.
  The specified result at an entry of a tile only reads entries of the same tile (the same channel and pixel
  in the sixteen frames), so the tile of the four-axis result IS the tile function of the tile of the
  input; and the 32 tiles cover the array. Hence the output array ends at the four-axis result of the
  array the region found, which is the input with its two pixel axes flattened; un-flattening the result
  gives the five-axis result of the input (Flatten.lean).
-/
import proofs.«137969_j77988016161334_2_alg».proof.Proof.TileValue
import proofs.«137969_j77988016161334_2_alg».proof.Proof.Flatten
import Idealize.ShloMosaic.Lib.StableHlo.Run

set_option maxRecDepth 16384

noncomputable section

open scoped BigOperators

namespace Cert.FrameSum.Kernel

open Idealize.ShloMosaic Idealize.ShloMosaic.TcCoe Idealize.SL.Sem Idealize.ShloMosaic.ValueIdx
open Idealize.ShloMosaic.StableHlo
open Cert.KernelIdeal Cert.KernelIdeal.Gen Cert.FrameSum

variable (m : (ℓ : Loc nD τ sig) → Buf (Elt Ideal) ℓ) (ρ : Dev nD → PrngReg)

/-- The array the region finds is the input with its pixel axes flattened. -/
theorem entry_array (c : Dev nD) :
    (V m c main_v0 : S16x4x64x16384.Idx → EReal)
      = shapeCast S16x4x64x16384 (m ((c : Thread nD τ).loc main_arg0)) shapeCasts_S16x4x64x128x128_S16x4x64x16384 := by
  show StableHlo.after hostOps0 (fun b => m (c, b)) (Proc.devRef .tc main_v0) = _
  after_results
  rfl

/-- The two windows move together: at every point both tiles sit at frame 0, the point's batch entry, the
    point's group of eight channels, pixel 0. -/
theorem idx_facts : ∀ t : Fin cfg0.N,
    win0_0.index t (0 : Fin 4) = 0 ∧ win0_0.index t (3 : Fin 4) = 0
    ∧ win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (1 : Fin 4) ≤ 3 ∧ win0_1.index t (2 : Fin 4) ≤ 7 :=
  (by decide +kernel : ∀ t : Fin grid0.N, _)

/-- WHAT POINT `t` WRITES BACK is tile `t` of the four-axis result of the array the region found. -/
theorem flushed_eq (c : Dev nD) (t : Fin cfg0.N) :
    (dats m 0 c).flushed 1 t = ((cfg0.win 1).blk t).view.read (Elt Ideal) (result4 (V m c main_v0)) := by
  show (cfg0.win 1).cut (grid0.coords t) ((dats m 0 c).after 1 t) = _
  rw [after0_1]
  unfold outsAt0
  rw [tile_eq]
  obtain ⟨e00, e03, e0, e1, e2, e3, b1, b2⟩ := idx_facts t
  refine funext fun (j : Tile.Idx) => ?_
  show resultTile (iblk m c 0 t) j = result4 (V m c main_v0) (((cfg0.win 1).blk t).view.emb j)
  -- an entry of the input tile is the array's entry at the tile's place
  have hE : ∀ y : Tile.Idx, iblk m c 0 t y = V m c main_v0 (((cfg0.win 0).blk t).view.emb y) := fun _ => rfl
  -- the two tiles sit at the same place
  have h0 : ((cfg0.win 0).blk t).view.emb j = ((cfg0.win 1).blk t).view.emb j := by
    funext a; apply Fin.ext
    match a with
    | ⟨0, _⟩ => show win0_0.index t (0 : Fin 4) * 16 + 1 * (j 0).val = win0_1.index t (0 : Fin 4) * 16 + 1 * (j 0).val; omega
    | ⟨1, _⟩ => show win0_0.index t (1 : Fin 4) * 1 + 1 * (j 1).val = win0_1.index t (1 : Fin 4) * 1 + 1 * (j 1).val; omega
    | ⟨2, _⟩ => show win0_0.index t (2 : Fin 4) * 8 + 1 * (j 2).val = win0_1.index t (2 : Fin 4) * 8 + 1 * (j 2).val; omega
    | ⟨3, _⟩ => show win0_0.index t (3 : Fin 4) * 16384 + 1 * (j 3).val = win0_1.index t (3 : Fin 4) * 16384 + 1 * (j 3).val; omega
  -- frame k of the tile at j's channel and pixel is frame k of the array at the same batch entry, channel and pixel
  have hk : ∀ k : Fin 16, ((cfg0.win 0).blk t).view.emb (ix4 k (j 1 : Fin 1) (j 2 : Fin 8) (j 3 : Fin 16384))
      = ix4 k ((((cfg0.win 1).blk t).view.emb j) 1 : Fin 4) ((((cfg0.win 1).blk t).view.emb j) 2 : Fin 64)
          ((((cfg0.win 1).blk t).view.emb j) 3 : Fin 16384) := by
    intro k
    funext a; apply Fin.ext
    match a with
    | ⟨0, _⟩ => show win0_0.index t (0 : Fin 4) * 16 + 1 * k.val = k.val; omega
    | ⟨1, _⟩ => show win0_0.index t (1 : Fin 4) * 1 + 1 * (j 1).val = win0_1.index t (1 : Fin 4) * 1 + 1 * (j 1).val; omega
    | ⟨2, _⟩ => show win0_0.index t (2 : Fin 4) * 8 + 1 * (j 2).val = win0_1.index t (2 : Fin 4) * 8 + 1 * (j 2).val; omega
    | ⟨3, _⟩ => show win0_0.index t (3 : Fin 4) * 16384 + 1 * (j 3).val = win0_1.index t (3 : Fin 4) * 16384 + 1 * (j 3).val; omega
  unfold resultTile result4
  simp only [hE, hk, h0]
  rfl

/-- An entry of the array is in point `t`'s tile iff each coordinate is in the tile's range on its axis. -/
theorem mem_blk (t : Fin cfg0.N) (i : S16x4x64x16384.Idx) :
    i ∈ ((cfg0.win 1).blk t).view.set ↔ ∀ a : Fin 4, win0_1.index t a * S16x1x8x16384.size a ≤ (i a).val
      ∧ (i a).val < win0_1.index t a * S16x1x8x16384.size a + S16x1x8x16384.size a := by
  show i ∈ ((View.whole main_v1).slice (win0_1.rect t)).set ↔ _
  rw [View.set_slice_whole, Rect.mem_set_unit]
  exact Iff.rfl

/-- Every batch entry and every group of eight channels is some point's. -/
theorem idx_onto : ∀ (q1 : Fin 4) (q2 : Fin 8), ∃ t : Fin cfg0.N, win0_1.index t = ![0, q1.val, q2.val, 0] :=
  (by decide +kernel : ∀ (q1 : Fin 4) (q2 : Fin 8), ∃ t : Fin grid0.N, win0_1.index t = ![0, q1.val, q2.val, 0])

/-- THE TILES COVER THE ARRAY: entry (n, b, c, l) is in the tile of the point (b, c / 8). -/
theorem cover (i : S16x4x64x16384.Idx) :
    ∃ t : Fin cfg0.N, (cfg0.win 1).flush t = true ∧ i ∈ ((cfg0.win 1).blk t).view.set := by
  have hi0 : (i 0).val < 16 := (i 0).isLt
  have hi1 : (i 1).val < 4 := (i 1).isLt
  have hi2 : (i 2).val < 64 := (i 2).isLt
  have hi3 : (i 3).val < 16384 := (i 3).isLt
  obtain ⟨t, ht⟩ := idx_onto ⟨(i 1).val, hi1⟩ ⟨(i 2).val / 8, by omega⟩
  have q0 : win0_1.index t (0 : Fin 4) = 0 := congrFun ht 0
  have q1 : win0_1.index t (1 : Fin 4) = (i 1).val := congrFun ht 1
  have q2 : win0_1.index t (2 : Fin 4) = (i 2).val / 8 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 16 ≤ (i 0).val ∧ (i 0).val < win0_1.index t (0 : Fin 4) * 16 + 16; omega
  | ⟨1, _⟩ => show win0_1.index t (1 : Fin 4) * 1 ≤ (i 1).val ∧ (i 1).val < win0_1.index t (1 : Fin 4) * 1 + 1; omega
  | ⟨2, _⟩ => show win0_1.index t (2 : Fin 4) * 8 ≤ (i 2).val ∧ (i 2).val < win0_1.index t (2 : Fin 4) * 8 + 8; omega
  | ⟨3, _⟩ => show win0_1.index t (3 : Fin 4) * 16384 ≤ (i 3).val ∧ (i 3).val < win0_1.index t (3 : Fin 4) * 16384 + 16384; omega

/-- THE OUTPUT ARRAY after the region: the four-axis result of the array the region found. -/
theorem final (c : Dev nD) : (dats m 0 c).arrAt 1 cfg0.N = result4 (V m c main_v0) :=
  (dats m 0 c).arrAt_eq_of_cover 1 (result4 (V m c main_v0)) (fun t _ => flushed_eq m c t) cover

/-- The program's result buffer after the reshape that follows the region. -/
theorem tail_eq (c : Dev nD) :
    Pipeline.afterTail₀ cfgs (dats m) 0 (V0 m) [hostOps1] c main_v2
      = result5 (m ((c : Thread nD τ).loc main_arg0)) := by
  unfold Pipeline.afterTail₀
  show StableHlo.after hostOps1 _ (Proc.devRef .tc main_v2) = _
  after_results
  -- the reshape reads the output array, which the region left at the four-axis result
  have hw : Pipeline.withArrays (cfgs 0).spec c (V0 m c) (fun w => (dats m 0 c).arrAt w (cfgs 0).N)
      (Proc.devRef .tc main_v1) = result4 (V m c main_v0) :=
    (Pipeline.withArrays_arr spec0 launch0.win.arr_inj c _ _ 1).trans (final m c)
  funext i
  show shapeCast S16x4x64x128x128 _ shapeCasts_S16x4x64x16384_S16x4x64x128x128 i = _
  rw [hw, entry_array]
  exact congrFun (unflatten_result _ _ _) i

/-- THE KERNEL'S RUN: every weakly fair execution ends with the result buffer at the five-axis result of the
    input, and the input unchanged. -/
theorem kernel_run :
    θ_run defs (onTc (τ := τ) (main (F := Ideal))) ⟨m, fun _ => 0, ρ⟩ (fun r => ∀ c : Dev nD,
      r.2.mem ((c.tc : Thread nD τ).loc main_v2) = result5 (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.FrameSum.Kernel

end
-- ==== Proof.lean ====
/-
  out[n] = frames[n]^2 * (sum over k of frames[k]), for sixteen frames of shape 4 x 64 x 128 x 128:
  the tiled kernel against the plain array program, equal entry by entry over the extended reals.

  Both programs compute, at entry (n, b, c, h, w),

      x(n,b,c,h,w) * x(n,b,c,h,w) * (z + sum over k < 16 of x(k,b,c,h,w)),

  with z the value of the same zero word (Spec.lean). The array program does so literally: a sum over the
  frame axis started from z, repeated along that axis, times the square (RefIsSpec.lean). The kernel
  flattens the two pixel axes, cuts the array into 4 x 8 tiles of eight channels of one batch entry, and on
  each tile keeps a running sum in a scratch buffer - zero-filled, then one frame added per step, sixteen
  steps (RunningSum.lean) - and stores, frame by frame, square times that sum (TileValue.lean). The running
  sum is z + x_0 + ... + x_15 grouped to the left; associativity of + on the extended reals, which holds at
  the infinities too, makes it z + (the sum), so no finiteness of the input is used. A tile's result only
  reads its own tile, and the tiles cover the array (KernelValue.lean); flattening and un-flattening the
  pixel axes around the result changes nothing (Flatten.lean).

  The three frame claims are the generated frame certificates (the array program's is its generated run with
  the result dropped); the idealization rewrote nothing, so the preservation claim is the true proposition.
-/
import proofs.«137969_j77988016161334_2_alg».proof.Defs
import proofs.«137969_j77988016161334_2_alg».proof.Proof.Gen.Kernel
import proofs.«137969_j77988016161334_2_alg».proof.Proof.Gen.Kernel.Skeleton
import proofs.«137969_j77988016161334_2_alg».proof.Proof.Gen.Kernel.Loops
import proofs.«137969_j77988016161334_2_alg».proof.Proof.Gen.Kernel.Launch
import proofs.«137969_j77988016161334_2_alg».proof.Proof.Gen.Kernel.Points
import proofs.«137969_j77988016161334_2_alg».proof.Proof.Gen.Kernel.Frame
import proofs.«137969_j77988016161334_2_alg».proof.Proof.Gen.KernelIdeal
import proofs.«137969_j77988016161334_2_alg».proof.Proof.Gen.KernelIdeal.Skeleton
import proofs.«137969_j77988016161334_2_alg».proof.Proof.Gen.KernelIdeal.Loops
import proofs.«137969_j77988016161334_2_alg».proof.Proof.Gen.KernelIdeal.Launch
import proofs.«137969_j77988016161334_2_alg».proof.Proof.Gen.KernelIdeal.Points
import proofs.«137969_j77988016161334_2_alg».proof.Proof.Gen.KernelIdeal.Frame
import proofs.«137969_j77988016161334_2_alg».proof.Proof.Gen.ReferenceIdeal
import proofs.«137969_j77988016161334_2_alg».proof.Proof.Gen.ReferenceIdeal.Run
import proofs.«137969_j77988016161334_2_alg».proof.Proof.Gen.ReferenceIdeal.Read
import proofs.«137969_j77988016161334_2_alg».proof.Proof.Gen.Pre_finite_inputs
import proofs.«137969_j77988016161334_2_alg».proof.Proof.RefIsSpec
import proofs.«137969_j77988016161334_2_alg».proof.Proof.KernelValue
import Idealize.ShloMosaic.Adequacy
import Idealize.ShloMosaic.Init

noncomputable section

namespace Cert.Proof

open Idealize.ShloMosaic Idealize.SL.Sem

/-- The kernel as printed runs and keeps its argument: the generated frame certificate. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The array program runs and keeps its argument: its generated run, the result dropped. -/
theorem frame_reference : Cert.frame_ReferenceIdeal := fun m ρ _ =>
  (θ_run Cert.ReferenceIdeal.defs _ _).mono (fun _ h c => (h c).2)
    (Cert.ReferenceIdeal.Value.run (F := Ideal) m ρ)

/-- Over the extended reals both programs end with the specified result of the same argument. -/
theorem algebraic : Cert.algebraic_KernelIdeal_ReferenceIdeal := by
  intro m ρ m' ρ' _ hagree
  refine ⟨fun c => Cert.FrameSum.result5 (m ((c.tc : Thread Cert.KernelIdeal.nD Cert.KernelIdeal.τ).loc Cert.KernelIdeal.main_arg0)),
    Cert.FrameSum.Kernel.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.FrameSum.Reference.stage_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
